-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 62
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .bf16⟩
  | .hbm, ⟨26, _⟩ => ⟨S128x128, .bf16⟩
  | .hbm, ⟨27, _⟩ => ⟨S128x128, .bf16⟩
  | .hbm, ⟨28, _⟩ => ⟨S128x128, .bf16⟩
  | .hbm, ⟨29, _⟩ => ⟨S128x128, .bf16⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .bf16⟩
  | .hbm, ⟨39, _⟩ => ⟨S1600000x128, .f32⟩
  | .hbm, ⟨40, _⟩ => ⟨S_, .f32⟩
  | .hbm, ⟨41, _⟩ => ⟨S100000x128, .f32⟩
  | .hbm, ⟨42, _⟩ => ⟨S1600000x1, .i32⟩
  | .hbm, ⟨43, _⟩ => ⟨S100000x128, .f32⟩
  | .hbm, ⟨44, _⟩ => ⟨S1x128, .f32⟩
  | .hbm, ⟨45, _⟩ => ⟨S100000x128, .bf16⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .bf16⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S1x128, .f32⟩
  | .hbm, ⟨61, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .bf16⟩
  | .local _ .vmem, ⟨3, _⟩ => ⟨S5000x128, .bf16⟩
  | .local _ .vmem, ⟨4, _⟩ => ⟨S5000x1, .f32⟩
  | .local _ .vmem, ⟨5, _⟩ => ⟨S5000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S5000x128, .bf16⟩
  | .local _ .vmem, ⟨10, _⟩ => ⟨S5000x128, .bf16⟩
  | .local _ .vmem, ⟨11, _⟩ => ⟨S5000x128, .f32⟩
  | .local _ .vmem, ⟨12, _⟩ => ⟨S5000x128, .f32⟩
  | .local _ .vmem, ⟨13, _⟩ => ⟨S5000x128, .bf16⟩
  | .local _ .vmem, ⟨14, _⟩ => ⟨S5000x128, .bf16⟩
  | .local _ .vmem, ⟨15, _⟩ => ⟨S5000x1, .f32⟩
  | .local _ .vmem, ⟨16, _⟩ => ⟨S5000x1, .f32⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .bf16 = 32 ∨ (Rect.block (s := S100000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .bf16 = 32 ∨ (Rect.block (s := S100000x128) S5000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .bf16 = 32 ∨ (Rect.block (s := S100000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v28) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v29) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S1x128, .f32⟩
  | .hbm, ⟨73, _⟩ => ⟨S100000x128, .f32⟩
  | .hbm, ⟨74, _⟩ => ⟨S100000x128, .f32⟩
  | .hbm, ⟨75, _⟩ => ⟨S100000x128, .f32⟩
  | .hbm, ⟨76, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with its result NAMED.  The program is two pipelined kernel regions
  among two stretches of host operations; every weakly fair execution terminates, nothing faults, and the
  final memory holds, at every buffer that outlives a region, the contents the fold through the four
  segments leaves there.  Read at the result buffer this is the second region's output array after its
  last write-back; read at an argument it is the launch contents.
-/
import proofs.«115030_j17738214933082_2_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second region's output window's array: at the end it holds that array after
    the last grid point's write-back. -/
theorem W4_result (c : Dev nD) :
    W4 m ρ c (Proc.devRef .tc main_v43) = (dat1 (V3 m ρ) c).arrAt 6 cfg1.N :=
  W4_arr m ρ c 6

set_option backward.isDefEq.respectTransparency.types false in
/-- Every weakly fair execution of the program terminates, nothing faulting, with the result buffer at the
    second region's final output array and every argument as launched. -/
theorem run : θ_run defs (onTc (τ := τ) (main (F := F))) ⟨m, fun _ => 0, ρ⟩ (fun r => ∀ c : Dev nD,
      r.2.mem ((c.tc : Thread nD τ).loc main_v43) = (dat1 (V3 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v43 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Out

end
-- ==== Proof.SageAlgebra.lean ====
/-
  One graph-convolution layer on the extended reals, entry by entry, in the two arrangements the two programs
  compute, and the law that joins them.

  With `A` the neighbour sums, `X` the node features, `c` the per-node divisor, `Wl`, `Wr` the two weight
  matrices and `b` the bias, entry (i, j) of the layer is

      Σ_k (A i k / c i) · Wl k j  +  b j  +  Σ_k X i k · Wr k j                    (divide, then add the bias first)

  and in the other arrangement, with the reciprocal `1 / c i` computed once per node,

      Σ_k (A i k · (1 / c i)) · Wl k j  +  Σ_k X i k · Wr k j  +  b j.             (scale, then add the bias last)

  On the extended reals a quotient by a divisor other than zero IS the product with the divisor's inverse, and
  `1 / c` is that inverse, so the two quotient forms agree term by term whenever `c i ≠ 0` — infinite entries of
  `A` or an infinite `c i` included; the rest is commutativity and associativity of addition, which hold on the
  extended reals without any finiteness.
-/
import Idealize.ShloMosaic.PureOps.Ideal
import Idealize.ShloMosaic.PureOps.Ideal.Laws

noncomputable section

namespace Cert.Sage

open Idealize.ShloMosaic

/-- Dividing by `c ≠ 0` is multiplying by the reciprocal `1 / c`: both are the product with `c⁻¹`. -/
theorem div_eq_mul_one_div (a c : EReal) (hc : c ≠ 0) : Ideal.div a c = a * Ideal.div 1 c := by
  rw [Ideal.div, if_neg hc, Ideal.div, if_neg hc, one_mul]

variable {M K N : Nat}

/-- Entry (i, j) of the layer, dividing each neighbour sum by the node's divisor and adding the bias before the
    second product. -/
def refEntry (A X : Fin M → Fin K → EReal) (c : Fin M → EReal) (Wl Wr : Fin K → Fin N → EReal) (b : Fin N → EReal)
    (i : Fin M) (j : Fin N) : EReal :=
  (∑ k : Fin K, Ideal.div (A i k) (c i) * Wl k j) + b j + ∑ k : Fin K, X i k * Wr k j

/-- Entry (i, j) of the layer, scaling each neighbour sum by the node's factor `s i` and adding the bias last. -/
def scaledEntry (A X : Fin M → Fin K → EReal) (s : Fin M → EReal) (Wl Wr : Fin K → Fin N → EReal) (b : Fin N → EReal)
    (i : Fin M) (j : Fin N) : EReal :=
  (∑ k : Fin K, (A i k * s i) * Wl k j) + (∑ k : Fin K, X i k * Wr k j) + b j

/-- With the factor the reciprocal of a divisor that is nowhere zero, the two arrangements are one function. -/
theorem scaledEntry_eq_refEntry (A X : Fin M → Fin K → EReal) (c : Fin M → EReal) (hc : ∀ i, c i ≠ 0)
    (Wl Wr : Fin K → Fin N → EReal) (b : Fin N → EReal) (i : Fin M) (j : Fin N) :
    scaledEntry A X (fun i => Ideal.div 1 (c i)) Wl Wr b i j = refEntry A X c Wl Wr b i j := by
  unfold scaledEntry refEntry
  rw [add_right_comm]
  refine congrArg (· + b j + ∑ k : Fin K, X i k * Wr k j) ?_
  exact Finset.sum_congr rfl fun k _ => by rw [div_eq_mul_one_div _ _ (hc i)]

/-- The larger of a value and one is not zero. -/
theorem max_one_ne_zero (x : EReal) : max x 1 ≠ 0 :=
  ne_of_gt (lt_of_lt_of_le zero_lt_one (le_max_right x 1))

end Cert.Sage

end
-- ==== Proof.LibReadAt.lean ====
/-
  General reading lemmas over literal shapes, in the style of the library's layout lemmas: a vector made a column
  ([a] to [a, 1]); a column repeated along rows ([a, 1] to [a, b]); a one-axis minimum reduction at the ideal
  values as the fold of `min` over that axis's coordinates; and a total sum over a rank-three index type with two
  unit axes as the sum over its one long coordinate.
-/
import Idealize.ShloMosaic.PureOps.Ideal.Laws
import Idealize.ShloMosaic.Lib.Pipeline.Value
import Idealize.ShloMosaic.Lib.ValueIdx
import Idealize.ShloMosaic.Lib.ValueLayout

namespace Cert.LibReadAt

open Idealize.ShloMosaic Idealize.ShloMosaic.ValueIdx

variable {α : Type}

/-- An `[a]` array cast to a column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- At the ideal values a minimum reduction over ONE axis is, at each reduced index, the fold of `min` from the
    accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- A sum over the second axis of an `[a, b]` array, read at `i`, is the sum over the row's entries. -/
theorem sumAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  exact Finset.sum_congr rfl fun k _ => congrArg src (funext fun d => Fin.ext (by match d with | ⟨0, _⟩ => rfl | ⟨1, _⟩ => rfl))

/-- A sum over the first axis of an `[a, b]` array, read at `j`, is the sum over the column's entries. -/
theorem sumAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ k : Fin a, src (ix2 k j) := by
  refine (Ideal.multiReduction_add_single src acc h hφ hacc (ix1 j)).trans ?_
  exact Finset.sum_congr rfl fun k _ => congrArg src (funext fun d => Fin.ext (by match d with | ⟨0, _⟩ => rfl | ⟨1, _⟩ => rfl))

/-- A minimum over the second axis of an `[a, b]` array, read at `i`, is the fold of `min` over the row's entries. -/
theorem minAxis1_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  refine (multiReduction_minimumf_single src acc h hφ hacc (ix1 i)).trans ?_
  exact congrArg (fun f => Finset.fold min (Ideal.ofBits φ acc) f (Finset.univ : Finset (Fin b)))
    (funext fun k => congrArg src (funext fun d => Fin.ext (by match d with | ⟨0, _⟩ => rfl | ⟨1, _⟩ => rfl)))

/-- A minimum over the first axis of an `[a, b]` array, read at `j`, is the fold of `min` over the column's entries. -/
theorem minAxis0_apply {φ : FTy} {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (j : Fin b) :
    multiReduction .minimumf [0] ⟨1, ![b]⟩ src acc h hφ hacc (ix1 j)
      = (Finset.univ : Finset (Fin a)).fold min (Ideal.ofBits φ acc) (fun k => src (ix2 k j)) := by
  refine (multiReduction_minimumf_single src acc h hφ hacc (ix1 j)).trans ?_
  exact congrArg (fun f => Finset.fold min (Ideal.ofBits φ acc) f (Finset.univ : Finset (Fin a)))
    (funext fun k => congrArg src (funext fun d => Fin.ext (by match d with | ⟨0, _⟩ => rfl | ⟨1, _⟩ => rfl)))

/-- The indices of a `[1, a, 1]` shape are its middle coordinates. -/
def midEquiv (a : ℕ) : Fin a ≃ (⟨3, ![1, a, 1]⟩ : Shape).Idx where
  toFun k := ix3 (0 : Fin 1) k (0 : Fin 1)
  invFun i := i 1
  left_inv _ := rfl
  right_inv i := funext fun d => match d with
    | ⟨0, _⟩ => Fin.ext (by have h : (i 0).val < 1 := (i 0).isLt; show (0 : ℕ) = (i 0).val; omega)
    | ⟨1, _⟩ => rfl
    | ⟨2, _⟩ => Fin.ext (by have h : (i 2).val < 1 := (i 2).isLt; show (0 : ℕ) = (i 2).val; omega)

/-- So a sum over them is the sum over the middle coordinate. -/
theorem sum_idx_1a1 {M : Type*} [AddCommMonoid M] {a : ℕ} (f : (⟨3, ![1, a, 1]⟩ : Shape).Idx → M) :
    ∑ i, f i = ∑ k : Fin a, f (ix3 (0 : Fin 1) k (0 : Fin 1)) :=
  (Equiv.sum_comp (midEquiv a) f).symm

/-- The indices of a `[1, 1, b]` shape are its last coordinates. -/
def lastEquiv (b : ℕ) : Fin b ≃ (⟨3, ![1, 1, b]⟩ : Shape).Idx where
  toFun k := ix3 (0 : Fin 1) (0 : Fin 1) k
  invFun i := i 2
  left_inv _ := rfl
  right_inv i := funext fun d => match d with
    | ⟨0, _⟩ => Fin.ext (by have h : (i 0).val < 1 := (i 0).isLt; show (0 : ℕ) = (i 0).val; omega)
    | ⟨1, _⟩ => Fin.ext (by have h : (i 1).val < 1 := (i 1).isLt; show (0 : ℕ) = (i 1).val; omega)
    | ⟨2, _⟩ => rfl

/-- So a sum over them is the sum over the last coordinate. -/
theorem sum_idx_11b {M : Type*} [AddCommMonoid M] {b : ℕ} (f : (⟨3, ![1, 1, b]⟩ : Shape).Idx → M) :
    ∑ i, f i = ∑ k : Fin b, f (ix3 (0 : Fin 1) (0 : Fin 1) k) :=
  (Equiv.sum_comp (lastEquiv b) f).symm

end Cert.LibReadAt
-- ==== Proof.KernelBlock.lean ====
/-
  What one grid point of either kernel region computes, entry by entry, on the extended reals.

  A point holds a 5000-row block `a` of the neighbour sums, the same rows `x` of the node features, those rows'
  column `s` of per-node factors, the two whole 128 × 128 weight matrices and the bias as one row.  It stores

      (a · s) Wl + x Wr + b        (each row of `a` scaled by its node's factor before the first product),

  which at row `p`, column `j` is  Σ_k (a p k · s p) · Wl k j + Σ_k x p k · Wr k j + b j:  the two products into
  zero accumulators are plain sums over the contracted coordinate, a change of float format is the identity,
  the factor column and the bias row are repeated along the other axis.  The first region stores the larger of
  this and zero; the second stores it as it is.
-/
import proofs.«115030_j17738214933082_2_alg».proof.Proof.Gen.KernelIdeal.Skeleton
import proofs.«115030_j17738214933082_2_alg».proof.Proof.SageAlgebra
import proofs.«115030_j17738214933082_2_alg».proof.Proof.LibReadAt
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The block product read at an entry -/

theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_contr (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, j) of a 5000 × 128 by 128 × 128 product into a zero accumulator is Σ_k l (p, k) · r (k, j). -/
theorem blockProduct_apply {φ₁ φ₂ : FTy} (l : FVec Ideal S5000x128 φ₁) (r : FVec Ideal S128x128 φ₂) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_contr _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs_contr _ _).trans hk
    | ⟨1, _⟩ => exact rhs_col _ _)
  rw [el, er]

/-! ## The two stored values -/

/-- The stored value's common part at (p, j), as the layer's scaled arrangement of the block's rows. -/
abbrev blockEntry (a : Vec Ideal S5000x128 .f32) (s : Vec Ideal S5000x1 .f32) (x : Vec Ideal S5000x128 .bf16)
    (wl wr : Vec Ideal S128x128 .bf16) (b : Vec Ideal S1x128 .f32) (p : Fin 5000) (j : Fin 128) : EReal :=
  Sage.scaledEntry (fun p k => a (ix2 p k)) (fun p k => x (ix2 p k)) (fun p => s (ix2 p (0 : Fin 1)))
    (fun k j => wl (ix2 k j)) (fun k j => wr (ix2 k j)) (fun j => b (ix2 (0 : Fin 1) j)) p j

/-- The second region's stored value at (p, j). -/
theorem second_apply (a : Vec Ideal S5000x128 .f32) (s : Vec Ideal S5000x1 .f32) (x : Vec Ideal S5000x128 .bf16)
    (wl wr : Vec Ideal S128x128 .bf16) (b : Vec Ideal S1x128 .f32) (p : Fin 5000) (j : Fin 128) :
    k1_pay1 a s x wl wr b (ix2 p j) = blockEntry a s x wl wr b p j := by
  unfold k1_pay1
  simp only [shapeCast_self]
  simp only [addf_apply]
  rw [blockProduct_apply, blockProduct_apply, broadcastTo_1b_ab_apply]
  unfold blockEntry Sage.scaledEntry
  refine congrArg (· + (∑ k : Fin 128, x (ix2 p k) * wr (ix2 k j)) + b (ix2 (0 : Fin 1) j)) ?_
  refine Finset.sum_congr rfl fun k _ => ?_
  rw [truncf_apply, mulf_apply, Cert.LibReadAt.broadcastTo_a1_ab_apply]

/-- The first region's stored value at (p, j): the larger of the common part and zero. -/
theorem first_apply (a : Vec Ideal S5000x128 .f32) (s : Vec Ideal S5000x1 .f32) (x : Vec Ideal S5000x128 .bf16)
    (wl wr : Vec Ideal S128x128 .bf16) (b : Vec Ideal S1x128 .f32) (p : Fin 5000) (j : Fin 128) :
    k0_pay1 a s x wl wr b (ix2 p j) = max (blockEntry a s x wl wr b p j) 0 := by
  unfold k0_pay1
  simp only [shapeCast_self]
  simp only [truncf_apply, maximumf_apply, addf_apply, broadcast_apply]
  rw [blockProduct_apply, blockProduct_apply, broadcastTo_1b_ab_apply]
  unfold blockEntry Sage.scaledEntry
  refine congr (congrArg max ?_) Ideal.ofBits_zero_f32
  refine congrArg (· + (∑ k : Fin 128, x (ix2 p k) * wr (ix2 k j)) + b (ix2 (0 : Fin 1) j)) ?_
  refine Finset.sum_congr rfl fun k _ => ?_
  rw [truncf_apply, mulf_apply, Cert.LibReadAt.broadcastTo_a1_ab_apply]

end Cert.KernelIdeal.Block

end
-- ==== Proof.KernelRegions.lean ====
/-
  Each kernel region's output array as ONE function of the arrays the region finds, whatever those are.

  A region runs twenty grid points; point `t` stages rows 5000 t … 5000 t + 4999 of the neighbour sums, of the
  node features and of the per-node factor column, the whole of the two weight matrices and of the bias row,
  and writes back rows 5000 t … 5000 t + 4999 of the output.  So the block's row `p` is the array's row
  5000 t + p, what the point writes is the layer's scaled arrangement of those rows, and since the twenty
  blocks cover all 100000 rows the output array ends holding the layer entry by entry.
-/
import proofs.«115030_j17738214933082_2_alg».proof.Proof.Gen.KernelIdeal.Frame
import proofs.«115030_j17738214933082_2_alg».proof.Proof.KernelBlock
import Idealize.ShloMosaic.Lib.Pipeline.Value

set_option maxRecDepth 16384

noncomputable section

namespace Cert.KernelIdeal.Regions

open Cert.KernelIdeal Cert.KernelIdeal.Gen Idealize.ShloMosaic Idealize.ShloMosaic.TcCoe Idealize.SL.Sem
open Idealize.ShloMosaic.ValueIdx
open Idealize.ShloMosaic.Pipeline (Dat)

theorem offsets_zero : (![0, 0] : Fin 2 → Nat) = fun _ => 0 := funext fun a => by fin_cases a <;> rfl

/-- Row `p` of the `t`-th block of 5000 rows. -/
def rowOf (t : Fin 20) (p : Fin 5000) : Fin 100000 := ⟨t.val * 5000 + p.val, by omega⟩

/-- The layer over whole arrays: at index `i` the scaled arrangement's entry at `i`'s row and column, then `post`. -/
def layerOut (post : EReal → EReal) (A : Vec Ideal S100000x128 .f32) (X : Vec Ideal S100000x128 .bf16) (s : Vec Ideal S100000x1 .f32)
    (wl wr : Vec Ideal S128x128 .bf16) (b : Vec Ideal S1x128 .f32) : S100000x128.Idx → EReal := fun i =>
  post (Sage.scaledEntry (fun p k => A (ix2 p k)) (fun p k => X (ix2 p k)) (fun p => s (ix2 p (0 : Fin 1)))
    (fun k j => wl (ix2 k j)) (fun k j => wr (ix2 k j)) (fun j => b (ix2 (0 : Fin 1) j))
    (⟨(i 0).val, (i 0).isLt⟩ : Fin 100000) (⟨(i 1).val, (i 1).isLt⟩ : Fin 128))

/-- A block's entry is the whole-array layer's entry at the block's place, when the block's rows are the
    arrays' rows there. -/
theorem entry_of_blocks (post : EReal → EReal) (A : Vec Ideal S100000x128 .f32) (X : Vec Ideal S100000x128 .bf16) (s : Vec Ideal S100000x1 .f32)
    (wl wr : Vec Ideal S128x128 .bf16) (b : Vec Ideal S1x128 .f32)
    (a' : Vec Ideal S5000x128 .f32) (s' : Vec Ideal S5000x1 .f32) (x' : Vec Ideal S5000x128 .bf16)
    (wl' wr' : Vec Ideal S128x128 .bf16) (b' : Vec Ideal S1x128 .f32) (t : Fin 20) (p : Fin 5000) (q : Fin 128)
    (hA : ∀ p k, a' (ix2 p k) = A (ix2 (rowOf t p) k)) (hX : ∀ p k, x' (ix2 p k) = X (ix2 (rowOf t p) k))
    (hs : ∀ p, s' (ix2 p (0 : Fin 1)) = s (ix2 (rowOf t p) (0 : Fin 1)))
    (hwl : ∀ k j, wl' (ix2 k j) = wl (ix2 k j)) (hwr : ∀ k j, wr' (ix2 k j) = wr (ix2 k j))
    (hb : ∀ j, b' (ix2 (0 : Fin 1) j) = b (ix2 (0 : Fin 1) j))
    (i : S100000x128.Idx) (hi0 : (i 0).val = t.val * 5000 + p.val) (hi1 : (i 1).val = q.val) :
    post (Block.blockEntry a' s' x' wl' wr' b' p q) = layerOut post A X s wl wr b i := by
  have hr : (⟨(i 0).val, (i 0).isLt⟩ : Fin 100000) = rowOf t p := Fin.ext hi0
  have hc : (⟨(i 1).val, (i 1).isLt⟩ : Fin 128) = q := Fin.ext hi1
  unfold layerOut Block.blockEntry Sage.scaledEntry
  rw [hr, hc]
  simp only [hA, hX, hs, hwl, hwr, hb]

variable (V : (c : Dev nD) → (b : Ref sig .tc) → Buf (Elt Ideal) ((c : Thread nD τ).loc b))

/-! ## Region 0 -/

/-- The printed index maps of region 0, decided over its twenty grid points: the row windows move with the point,
    the weights and the bias stay at block (0, 0). -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt0 (t : Fin cfg0.N) : t.val < 20 := lt_of_lt_of_eq t.isLt N_0

/-- Row `p` of the neighbour-sum block at point `t` is row `5000 t + p` of the array. -/
theorem read0_0 (c : Dev nD) (t : Fin cfg0.N) (p : Fin 5000) (k : Fin 128) :
    iblk0 V c 0 t (ix2 p k) = V c (Pipeline.arrRef spec0 0) (ix2 (rowOf ⟨t.val, point_lt0 t⟩ p) k) := by
  show V c (Pipeline.arrRef spec0 0) (((cfg0.win 0).blk t).view.emb (ix2 p k)) = _
  obtain ⟨e, e', -⟩ := index0 t
  refine congrArg _ (funext fun ax => Fin.ext ?_)
  match ax with
  | ⟨0, _⟩ => show win0_0.index t (0 : Fin 2) * 5000 + 1 * p.val = t.val * 5000 + p.val; omega
  | ⟨1, _⟩ => show win0_0.index t (1 : Fin 2) * 128 + 1 * k.val = k.val; omega

/-- Row `p` of the feature block at point `t` is row `5000 t + p` of the array. -/
theorem read0_1 (c : Dev nD) (t : Fin cfg0.N) (p : Fin 5000) (k : Fin 128) :
    iblk0 V c 1 t (ix2 p k) = V c (Pipeline.arrRef spec0 1) (ix2 (rowOf ⟨t.val, point_lt0 t⟩ p) k) := by
  show V c (Pipeline.arrRef spec0 1) (((cfg0.win 1).blk t).view.emb (ix2 p k)) = _
  obtain ⟨-, -, e, e', -⟩ := index0 t
  refine congrArg _ (funext fun ax => Fin.ext ?_)
  match ax with
  | ⟨0, _⟩ => show win0_1.index t (0 : Fin 2) * 5000 + 1 * p.val = t.val * 5000 + p.val; omega
  | ⟨1, _⟩ => show win0_1.index t (1 : Fin 2) * 128 + 1 * k.val = k.val; omega

/-- Entry `p` of the factor column's block at point `t` is entry `5000 t + p` of the column. -/
theorem read0_2 (c : Dev nD) (t : Fin cfg0.N) (p : Fin 5000) :
    iblk0 V c 2 t (ix2 p (0 : Fin 1)) = V c (Pipeline.arrRef spec0 2) (ix2 (rowOf ⟨t.val, point_lt0 t⟩ p) (0 : Fin 1)) := by
  show V c (Pipeline.arrRef spec0 2) (((cfg0.win 2).blk t).view.emb (ix2 p (0 : Fin 1))) = _
  obtain ⟨-, -, -, -, e, e', -⟩ := index0 t
  refine congrArg _ (funext fun ax => Fin.ext ?_)
  match ax with
  | ⟨0, _⟩ => show win0_2.index t (0 : Fin 2) * 5000 + 1 * p.val = t.val * 5000 + p.val; omega
  | ⟨1, _⟩ => show win0_2.index t (1 : Fin 2) * 1 + 1 * 0 = 0; omega

/-- The first weight matrix's one block is the whole matrix. -/
theorem read0_3 (c : Dev nD) (t : Fin cfg0.N) (k : Fin 128) (j : Fin 128) :
    iblk0 V c 3 t (ix2 k j) = V c (Pipeline.arrRef spec0 3) (ix2 k j) := by
  show V c (Pipeline.arrRef spec0 3) (((cfg0.win 3).blk t).view.emb (ix2 k j)) = _
  obtain ⟨-, -, -, -, -, -, e, e', -⟩ := index0 t
  refine congrArg _ (funext fun ax => Fin.ext ?_)
  match ax with
  | ⟨0, _⟩ => show win0_3.index t (0 : Fin 2) * 128 + 1 * k.val = k.val; omega
  | ⟨1, _⟩ => show win0_3.index t (1 : Fin 2) * 128 + 1 * j.val = j.val; omega

/-- The second weight matrix's one block is the whole matrix. -/
theorem read0_4 (c : Dev nD) (t : Fin cfg0.N) (k : Fin 128) (j : Fin 128) :
    iblk0 V c 4 t (ix2 k j) = V c (Pipeline.arrRef spec0 4) (ix2 k j) := by
  show V c (Pipeline.arrRef spec0 4) (((cfg0.win 4).blk t).view.emb (ix2 k j)) = _
  obtain ⟨-, -, -, -, -, -, -, -, e, e', -⟩ := index0 t
  refine congrArg _ (funext fun ax => Fin.ext ?_)
  match ax with
  | ⟨0, _⟩ => show win0_4.index t (0 : Fin 2) * 128 + 1 * k.val = k.val; omega
  | ⟨1, _⟩ => show win0_4.index t (1 : Fin 2) * 128 + 1 * j.val = j.val; omega

/-- The bias row's one block is the whole row. -/
theorem read0_5 (c : Dev nD) (t : Fin cfg0.N) (j : Fin 128) :
    iblk0 V c 5 t (ix2 (0 : Fin 1) j) = V c (Pipeline.arrRef spec0 5) (ix2 (0 : Fin 1) j) := by
  show V c (Pipeline.arrRef spec0 5) (((cfg0.win 5).blk t).view.emb (ix2 (0 : Fin 1) j)) = _
  obtain ⟨-, -, -, -, -, -, -, -, -, -, e, e', -⟩ := index0 t
  refine congrArg _ (funext fun ax => Fin.ext ?_)
  match ax with
  | ⟨0, _⟩ => show win0_5.index t (0 : Fin 2) * 1 + 1 * 0 = 0; omega
  | ⟨1, _⟩ => show win0_5.index t (1 : Fin 2) * 128 + 1 * j.val = j.val; omega

/-- The region's output array as one function of its operand arrays: the larger of the layer and zero. -/
abbrev result0 (c : Dev nD) : S100000x128.Idx → EReal :=
  layerOut (max · 0) (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))

/-- What point `t` writes back is block `t` of that function. -/
theorem flushed0_eq (c : Dev nD) (t : Fin cfg0.N) :
    (dat0 V c).flushed 6 t = ((cfg0.win 6).blk t).view.read (Elt Ideal) (result0 V c) := by
  show (cfg0.win 6).cut (grid0.coords t) ((dat0 V c).after 6 t) = _
  rw [after0_6]
  unfold out0_6
  rw [View.canon_unit_zero offsets_zero]
  simp only [View.ld_unit_zero (S := S5000x128) offsets_zero, View.ld_unit_zero (S := S5000x1) offsets_zero,
    View.ld_unit_zero (S := S128x128) offsets_zero, View.ld_unit_zero (S := S1x128) offsets_zero]
  funext y
  obtain ⟨p, q, rfl⟩ : ∃ (p : Fin 5000) (q : Fin 128), y = ix2 p q := ⟨y 0, y 1, eq_ix2 y⟩
  show k0_pay1 (iblk0 V c 0 t) (iblk0 V c 2 t) (iblk0 V c 1 t) (iblk0 V c 3 t) (iblk0 V c 4 t) (iblk0 V c 5 t) (ix2 p q)
    = result0 V c (((cfg0.win 6).blk t).view.emb (ix2 p q))
  refine (Block.first_apply (iblk0 V c 0 t) (iblk0 V c 2 t) (iblk0 V c 1 t) (iblk0 V c 3 t) (iblk0 V c 4 t) (iblk0 V c 5 t) p q).trans ?_
  obtain ⟨-, -, -, -, -, -, -, -, -, -, -, -, e, e'⟩ := index0 t
  exact entry_of_blocks (max · 0) _ _ _ _ _ _ _ _ _ _ _ _ ⟨t.val, point_lt0 t⟩ p q
    (read0_0 V c t) (read0_1 V c t) (read0_2 V c t) (read0_3 V c t) (read0_4 V c t) (read0_5 V c t) _
    (by show win0_6.index t (0 : Fin 2) * 5000 + 1 * p.val = t.val * 5000 + p.val; omega)
    (by show win0_6.index t (1 : Fin 2) * 128 + 1 * q.val = q.val; omega)

/-- An index of the output array is in point `t`'s block iff each coordinate is in the block's range. -/
theorem mem_block0 (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v30).slice (win0_6.rect t)).set ↔ _
  rw [View.set_slice_whole, Rect.mem_set_unit]
  exact Iff.rfl

/-- The twenty blocks of 5000 rows cover the 100000 rows: row `r` is in block `r / 5000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 :=
    ⟨Fin.cast N_0.symm ⟨(i 0).val / 5000, by omega⟩, rfl⟩
  refine ⟨t, flush0_6 t, ?_⟩
  rw [mem_block0]
  obtain ⟨-, -, -, -, -, -, -, -, -, -, -, -, e, e'⟩ := index0 t
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- After the region's last point the output array IS that function of the operand arrays. -/
theorem final0 (c : Dev nD) : (dat0 V c).arrAt 6 cfg0.N = result0 V c :=
  (dat0 V c).arrAt_eq_of_cover 6 (result0 V c) (fun t _ => flushed0_eq V c t) cover0

/-! ## Region 1 -/

/-- The printed index maps of region 1, decided over its twenty grid points: the row windows move with the point,
    the weights and the bias stay at block (0, 0). -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem point_lt1 (t : Fin cfg1.N) : t.val < 20 := lt_of_lt_of_eq t.isLt N_1

/-- Row `p` of the neighbour-sum block at point `t` is row `5000 t + p` of the array. -/
theorem read1_0 (c : Dev nD) (t : Fin cfg1.N) (p : Fin 5000) (k : Fin 128) :
    iblk1 V c 0 t (ix2 p k) = V c (Pipeline.arrRef spec1 0) (ix2 (rowOf ⟨t.val, point_lt1 t⟩ p) k) := by
  show V c (Pipeline.arrRef spec1 0) (((cfg1.win 0).blk t).view.emb (ix2 p k)) = _
  obtain ⟨e, e', -⟩ := index1 t
  refine congrArg _ (funext fun ax => Fin.ext ?_)
  match ax with
  | ⟨0, _⟩ => show win1_0.index t (0 : Fin 2) * 5000 + 1 * p.val = t.val * 5000 + p.val; omega
  | ⟨1, _⟩ => show win1_0.index t (1 : Fin 2) * 128 + 1 * k.val = k.val; omega

/-- Row `p` of the feature block at point `t` is row `5000 t + p` of the array. -/
theorem read1_1 (c : Dev nD) (t : Fin cfg1.N) (p : Fin 5000) (k : Fin 128) :
    iblk1 V c 1 t (ix2 p k) = V c (Pipeline.arrRef spec1 1) (ix2 (rowOf ⟨t.val, point_lt1 t⟩ p) k) := by
  show V c (Pipeline.arrRef spec1 1) (((cfg1.win 1).blk t).view.emb (ix2 p k)) = _
  obtain ⟨-, -, e, e', -⟩ := index1 t
  refine congrArg _ (funext fun ax => Fin.ext ?_)
  match ax with
  | ⟨0, _⟩ => show win1_1.index t (0 : Fin 2) * 5000 + 1 * p.val = t.val * 5000 + p.val; omega
  | ⟨1, _⟩ => show win1_1.index t (1 : Fin 2) * 128 + 1 * k.val = k.val; omega

/-- Entry `p` of the factor column's block at point `t` is entry `5000 t + p` of the column. -/
theorem read1_2 (c : Dev nD) (t : Fin cfg1.N) (p : Fin 5000) :
    iblk1 V c 2 t (ix2 p (0 : Fin 1)) = V c (Pipeline.arrRef spec1 2) (ix2 (rowOf ⟨t.val, point_lt1 t⟩ p) (0 : Fin 1)) := by
  show V c (Pipeline.arrRef spec1 2) (((cfg1.win 2).blk t).view.emb (ix2 p (0 : Fin 1))) = _
  obtain ⟨-, -, -, -, e, e', -⟩ := index1 t
  refine congrArg _ (funext fun ax => Fin.ext ?_)
  match ax with
  | ⟨0, _⟩ => show win1_2.index t (0 : Fin 2) * 5000 + 1 * p.val = t.val * 5000 + p.val; omega
  | ⟨1, _⟩ => show win1_2.index t (1 : Fin 2) * 1 + 1 * 0 = 0; omega

/-- The first weight matrix's one block is the whole matrix. -/
theorem read1_3 (c : Dev nD) (t : Fin cfg1.N) (k : Fin 128) (j : Fin 128) :
    iblk1 V c 3 t (ix2 k j) = V c (Pipeline.arrRef spec1 3) (ix2 k j) := by
  show V c (Pipeline.arrRef spec1 3) (((cfg1.win 3).blk t).view.emb (ix2 k j)) = _
  obtain ⟨-, -, -, -, -, -, e, e', -⟩ := index1 t
  refine congrArg _ (funext fun ax => Fin.ext ?_)
  match ax with
  | ⟨0, _⟩ => show win1_3.index t (0 : Fin 2) * 128 + 1 * k.val = k.val; omega
  | ⟨1, _⟩ => show win1_3.index t (1 : Fin 2) * 128 + 1 * j.val = j.val; omega

/-- The second weight matrix's one block is the whole matrix. -/
theorem read1_4 (c : Dev nD) (t : Fin cfg1.N) (k : Fin 128) (j : Fin 128) :
    iblk1 V c 4 t (ix2 k j) = V c (Pipeline.arrRef spec1 4) (ix2 k j) := by
  show V c (Pipeline.arrRef spec1 4) (((cfg1.win 4).blk t).view.emb (ix2 k j)) = _
  obtain ⟨-, -, -, -, -, -, -, -, e, e', -⟩ := index1 t
  refine congrArg _ (funext fun ax => Fin.ext ?_)
  match ax with
  | ⟨0, _⟩ => show win1_4.index t (0 : Fin 2) * 128 + 1 * k.val = k.val; omega
  | ⟨1, _⟩ => show win1_4.index t (1 : Fin 2) * 128 + 1 * j.val = j.val; omega

/-- The bias row's one block is the whole row. -/
theorem read1_5 (c : Dev nD) (t : Fin cfg1.N) (j : Fin 128) :
    iblk1 V c 5 t (ix2 (0 : Fin 1) j) = V c (Pipeline.arrRef spec1 5) (ix2 (0 : Fin 1) j) := by
  show V c (Pipeline.arrRef spec1 5) (((cfg1.win 5).blk t).view.emb (ix2 (0 : Fin 1) j)) = _
  obtain ⟨-, -, -, -, -, -, -, -, -, -, e, e', -⟩ := index1 t
  refine congrArg _ (funext fun ax => Fin.ext ?_)
  match ax with
  | ⟨0, _⟩ => show win1_5.index t (0 : Fin 2) * 1 + 1 * 0 = 0; omega
  | ⟨1, _⟩ => show win1_5.index t (1 : Fin 2) * 128 + 1 * j.val = j.val; omega

/-- The region's output array as one function of its operand arrays: the layer as it is. -/
abbrev result1 (c : Dev nD) : S100000x128.Idx → EReal :=
  layerOut (fun v => v) (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))

/-- What point `t` writes back is block `t` of that function. -/
theorem flushed1_eq (c : Dev nD) (t : Fin cfg1.N) :
    (dat1 V c).flushed 6 t = ((cfg1.win 6).blk t).view.read (Elt Ideal) (result1 V c) := by
  show (cfg1.win 6).cut (grid1.coords t) ((dat1 V c).after 6 t) = _
  rw [after1_6]
  unfold out1_6
  rw [View.canon_unit_zero offsets_zero]
  simp only [View.ld_unit_zero (S := S5000x128) offsets_zero, View.ld_unit_zero (S := S5000x1) offsets_zero,
    View.ld_unit_zero (S := S128x128) offsets_zero, View.ld_unit_zero (S := S1x128) offsets_zero]
  funext y
  obtain ⟨p, q, rfl⟩ : ∃ (p : Fin 5000) (q : Fin 128), y = ix2 p q := ⟨y 0, y 1, eq_ix2 y⟩
  show k1_pay1 (iblk1 V c 0 t) (iblk1 V c 2 t) (iblk1 V c 1 t) (iblk1 V c 3 t) (iblk1 V c 4 t) (iblk1 V c 5 t) (ix2 p q)
    = result1 V c (((cfg1.win 6).blk t).view.emb (ix2 p q))
  refine (Block.second_apply (iblk1 V c 0 t) (iblk1 V c 2 t) (iblk1 V c 1 t) (iblk1 V c 3 t) (iblk1 V c 4 t) (iblk1 V c 5 t) p q).trans ?_
  obtain ⟨-, -, -, -, -, -, -, -, -, -, -, -, e, e'⟩ := index1 t
  exact entry_of_blocks (fun v => v) _ _ _ _ _ _ _ _ _ _ _ _ ⟨t.val, point_lt1 t⟩ p q
    (read1_0 V c t) (read1_1 V c t) (read1_2 V c t) (read1_3 V c t) (read1_4 V c t) (read1_5 V c t) _
    (by show win1_6.index t (0 : Fin 2) * 5000 + 1 * p.val = t.val * 5000 + p.val; omega)
    (by show win1_6.index t (1 : Fin 2) * 128 + 1 * q.val = q.val; omega)

/-- An index of the output array is in point `t`'s block iff each coordinate is in the block's range. -/
theorem mem_block1 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v43).slice (win1_6.rect t)).set ↔ _
  rw [View.set_slice_whole, Rect.mem_set_unit]
  exact Iff.rfl

/-- The twenty blocks of 5000 rows cover the 100000 rows: row `r` is in block `r / 5000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 5000 :=
    ⟨Fin.cast N_1.symm ⟨(i 0).val / 5000, by omega⟩, rfl⟩
  refine ⟨t, flush1_6 t, ?_⟩
  rw [mem_block1]
  obtain ⟨-, -, -, -, -, -, -, -, -, -, -, -, e, e'⟩ := index1 t
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- After the region's last point the output array IS that function of the operand arrays. -/
theorem final1 (c : Dev nD) : (dat1 V c).arrAt 6 cfg1.N = result1 V c :=
  (dat1 V c).arrAt_eq_of_cover 6 (result1 V c) (fun t _ => flushed1_eq V c t) cover1

end Cert.KernelIdeal.Regions

end
-- ==== Proof.KernelHost.lean ====
/-
  What the host operations around the two kernel regions compute, as functions of the program's arguments.

  From the edge list the program takes its two rows — the source node and the destination node of every edge —
  and with them, for a feature array `h`, the NEIGHBOUR SUM: the rows of `h` gathered at the sources (a source
  below zero counted from the end) and added up at the destinations.  The same rows give the per-node factor: one
  over the larger of a node's in-degree and one.  Before the first region the features are the argument `x`;
  between the regions they are the first region's output array.  Features, weights and biases otherwise only
  change float format or gain a unit axis.
-/
import proofs.«115030_j17738214933082_2_alg».proof.Proof.Gen.KernelIdeal.Frame
import Idealize.ShloMosaic.PureOps.Ideal

set_option maxRecDepth 16384

noncomputable section

namespace Cert.KernelIdeal.Stretch

open Cert.KernelIdeal Cert.KernelIdeal.Gen Idealize.ShloMosaic Idealize.ShloMosaic.TcCoe Idealize.SL.Sem
open Idealize.ShloMosaic.StableHlo

abbrev Edges := (⟨S2x1600000, .i32⟩ : BufTy).Contents (Elt Ideal)
abbrev EdgeRow := (⟨S1600000, .i32⟩ : BufTy).Contents (Elt Ideal)

/-- A change of float format from f32 to bf16, array-wide. -/
def narrow {S : Shape} (x : (⟨S, .f32⟩ : BufTy).Contents (Elt Ideal)) : (⟨S, .bf16⟩ : BufTy).Contents (Elt Ideal) :=
  ((truncf (F := Ideal) .bf16 · bitsLt_bf16_f32) : (⟨S, .f32⟩ : BufTy).Contents (Elt Ideal) → (⟨S, .bf16⟩ : BufTy).Contents (Elt Ideal)) x

/-- The edges' source nodes. -/
def srcRow (e : Edges) : EdgeRow :=
  shapeCast S1600000 (extractStridedSlice S1x1600000 ![0, 0] e slices_S2x1600000_S1x1600000_0_0) shapeCasts_S1x1600000_S1600000
/-- The edges' destination nodes. -/
def dstRow (e : Edges) : EdgeRow :=
  shapeCast S1600000 (extractStridedSlice S1x1600000 ![1, 0] e slices_S2x1600000_S1x1600000_1_0) shapeCasts_S1x1600000_S1600000

/-- The neighbour sum of the features `h` along the edges with sources `s` and destinations `d`. -/
def neighbourSum (s d : EdgeRow) (h : (⟨S100000x128, .bf16⟩ : BufTy).Contents (Elt Ideal)) : (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (extf (F := Ideal) .f32 (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s))) bitsLt_bf16_f32)

/-- The larger of each node's in-degree and one. -/
def degree (d : EdgeRow) : (⟨S100000, .f32⟩ : BufTy).Contents (Elt Ideal) :=
  maximumf (F := Ideal) (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32))

/-- The per-node factor as a column: one over the degree. -/
def factor (d : EdgeRow) : (⟨S100000x1, .f32⟩ : BufTy).Contents (Elt Ideal) :=
  shapeCast S100000x1 (Host.divf (F := Ideal) (broadcastInDim S100000 ![] bcast_S_S100000 (constant (F := Ideal) S_ .f32 0x3F800000#32)) (degree d))
    shapeCasts_S100000_S100000x1

variable (m : (ℓ : Loc nD τ sig) → Buf (Elt Ideal) ℓ) (ρ : Dev nD → PrngReg)

/-! ## Before the first region -/

theorem first_src (c : Dev nD) : W1 m ρ c (Proc.devRef .tc main_v1) = srcRow (m ((c : Thread nD τ).loc main_arg1)) := by
  show StableHlo.after hostOps0 (W0 m ρ c) (Proc.devRef .tc main_v1) = _
  unfold srcRow
  after_results_simp <;> rfl
theorem first_dst (c : Dev nD) : W1 m ρ c (Proc.devRef .tc main_v3) = dstRow (m ((c : Thread nD τ).loc main_arg1)) := by
  show StableHlo.after hostOps0 (W0 m ρ c) (Proc.devRef .tc main_v3) = _
  unfold dstRow
  after_results_simp <;> rfl
theorem first_sum (c : Dev nD) : W1 m ρ c (Proc.devRef .tc main_v28)
    = neighbourSum (srcRow (m ((c : Thread nD τ).loc main_arg1))) (dstRow (m ((c : Thread nD τ).loc main_arg1)))
        (narrow (m ((c : Thread nD τ).loc main_arg0))) := by
  show StableHlo.after hostOps0 (W0 m ρ c) (Proc.devRef .tc main_v28) = _
  unfold neighbourSum srcRow dstRow narrow
  after_results_simp <;> rfl
theorem first_features (c : Dev nD) : W1 m ρ c (Proc.devRef .tc main_v13)
    = narrow (m ((c : Thread nD τ).loc main_arg0)) := by
  show StableHlo.after hostOps0 (W0 m ρ c) (Proc.devRef .tc main_v13) = _
  after_results_simp <;> rfl
theorem first_factor (c : Dev nD) : W1 m ρ c (Proc.devRef .tc main_v12) = factor (dstRow (m ((c : Thread nD τ).loc main_arg1))) := by
  show StableHlo.after hostOps0 (W0 m ρ c) (Proc.devRef .tc main_v12) = _
  unfold factor degree dstRow
  after_results_simp <;> rfl
theorem first_wl (c : Dev nD) : W1 m ρ c (Proc.devRef .tc main_v14) = narrow (m ((c : Thread nD τ).loc main_arg2)) := by
  show StableHlo.after hostOps0 (W0 m ρ c) (Proc.devRef .tc main_v14) = _
  after_results_simp <;> rfl
theorem first_wr (c : Dev nD) : W1 m ρ c (Proc.devRef .tc main_v15) = narrow (m ((c : Thread nD τ).loc main_arg3)) := by
  show StableHlo.after hostOps0 (W0 m ρ c) (Proc.devRef .tc main_v15) = _
  after_results_simp <;> rfl
theorem first_bias (c : Dev nD) : W1 m ρ c (Proc.devRef .tc main_v29) = shapeCast S1x128 (m ((c : Thread nD τ).loc main_arg4)) shapeCasts_S128_S1x128 := by
  show StableHlo.after hostOps0 (W0 m ρ c) (Proc.devRef .tc main_v29) = _
  after_results_simp <;> rfl
theorem first_wl2 (c : Dev nD) : W1 m ρ c (Proc.devRef .tc main_v16) = narrow (m ((c : Thread nD τ).loc main_arg5)) := by
  show StableHlo.after hostOps0 (W0 m ρ c) (Proc.devRef .tc main_v16) = _
  after_results_simp <;> rfl
theorem first_wr2 (c : Dev nD) : W1 m ρ c (Proc.devRef .tc main_v17) = narrow (m ((c : Thread nD τ).loc main_arg6)) := by
  show StableHlo.after hostOps0 (W0 m ρ c) (Proc.devRef .tc main_v17) = _
  after_results_simp <;> rfl
theorem first_bias2 (c : Dev nD) : W1 m ρ c (Proc.devRef .tc main_arg7) = m ((c : Thread nD τ).loc main_arg7) := by
  show StableHlo.after hostOps0 (W0 m ρ c) (Proc.devRef .tc main_arg7) = _
  after_results_simp <;> rfl

/-! ## Between the regions -/

theorem second_sum (c : Dev nD) : W3 m ρ c (Proc.devRef .tc main_v41)
    = neighbourSum (W2 m ρ c (Proc.devRef .tc main_v1)) (W2 m ρ c (Proc.devRef .tc main_v3)) (W2 m ρ c (Proc.devRef .tc main_v30)) := by
  show StableHlo.after hostOps1 (W2 m ρ c) (Proc.devRef .tc main_v41) = _
  unfold neighbourSum
  after_results_simp <;> rfl
theorem second_features (c : Dev nD) : W3 m ρ c (Proc.devRef .tc main_v30) = W2 m ρ c (Proc.devRef .tc main_v30) := by
  show StableHlo.after hostOps1 (W2 m ρ c) (Proc.devRef .tc main_v30) = _
  after_results_simp <;> rfl
theorem second_factor (c : Dev nD) : W3 m ρ c (Proc.devRef .tc main_v12) = W2 m ρ c (Proc.devRef .tc main_v12) := by
  show StableHlo.after hostOps1 (W2 m ρ c) (Proc.devRef .tc main_v12) = _
  after_results_simp <;> rfl
theorem second_wl (c : Dev nD) : W3 m ρ c (Proc.devRef .tc main_v16) = W2 m ρ c (Proc.devRef .tc main_v16) := by
  show StableHlo.after hostOps1 (W2 m ρ c) (Proc.devRef .tc main_v16) = _
  after_results_simp <;> rfl
theorem second_wr (c : Dev nD) : W3 m ρ c (Proc.devRef .tc main_v17) = W2 m ρ c (Proc.devRef .tc main_v17) := by
  show StableHlo.after hostOps1 (W2 m ρ c) (Proc.devRef .tc main_v17) = _
  after_results_simp <;> rfl
theorem second_bias (c : Dev nD) : W3 m ρ c (Proc.devRef .tc main_v42)
    = shapeCast S1x128 (W2 m ρ c (Proc.devRef .tc main_arg7)) shapeCasts_S128_S1x128 := by
  show StableHlo.after hostOps1 (W2 m ρ c) (Proc.devRef .tc main_v42) = _
  after_results_simp <;> rfl

end Cert.KernelIdeal.Stretch

end
-- ==== Proof.KernelValue.lean ====
/-
  The idealized kernel program's result as a function of its arguments.

  The second region's output array is the layer (scaled arrangement) of the arrays the region finds: the
  neighbour sums of the first region's output, that output itself, the per-node factor column, the second
  layer's weights in the narrower format and its bias as a row.  The first region's output array is the positive
  part of the same layer of the neighbour sums of the argument features, those features, the same factor column
  and the first layer's weights and bias.  The host operations between the regions read the first region's
  output where the pipeline left it; every other buffer they read still holds what the first stretch computed.
-/
import proofs.«115030_j17738214933082_2_alg».proof.Proof.KernelRun
import proofs.«115030_j17738214933082_2_alg».proof.Proof.KernelRegions
import proofs.«115030_j17738214933082_2_alg».proof.Proof.KernelHost

set_option maxRecDepth 16384

noncomputable section

namespace Cert.KernelIdeal.Out

open Cert.KernelIdeal Cert.KernelIdeal.Gen Idealize.ShloMosaic Idealize.ShloMosaic.TcCoe Idealize.SL.Sem
open Cert.KernelIdeal.Stretch

abbrev Nodes32 := (⟨S100000x128, .f32⟩ : BufTy).Contents (Elt Ideal)
abbrev Weights32 := (⟨S128x128, .f32⟩ : BufTy).Contents (Elt Ideal)
abbrev Bias32 := (⟨S128, .f32⟩ : BufTy).Contents (Elt Ideal)

/-- The first region's output array, from the arguments. -/
def hidden (e : Edges) (x : Nodes32) (wl wr : Weights32) (b : Bias32) : (⟨S100000x128, .bf16⟩ : BufTy).Contents (Elt Ideal) :=
  Regions.layerOut (max · 0) (neighbourSum (srcRow e) (dstRow e) (narrow x)) (narrow x) (factor (dstRow e))
    (narrow wl) (narrow wr) (shapeCast S1x128 b shapeCasts_S128_S1x128)

/-- The program's result, from the arguments. -/
def result (e : Edges) (x : Nodes32) (wl wr : Weights32) (b : Bias32) (wl2 wr2 : Weights32) (b2 : Bias32) : S100000x128.Idx → EReal :=
  Regions.layerOut (fun v => v) (neighbourSum (srcRow e) (dstRow e) (hidden e x wl wr b)) (hidden e x wl wr b) (factor (dstRow e))
    (narrow wl2) (narrow wr2) (shapeCast S1x128 b2 shapeCasts_S128_S1x128)

variable (m : (ℓ : Loc nD τ sig) → Buf (Elt Ideal) ℓ) (ρ : Dev nD → PrngReg)

/-- Between the regions the first region's output buffer holds `hidden` of the arguments. -/
theorem hidden_eq (c : Dev nD) : W2 m ρ c (Proc.devRef .tc main_v30)
    = hidden (m ((c : Thread nD τ).loc main_arg1)) (m ((c : Thread nD τ).loc main_arg0)) (m ((c : Thread nD τ).loc main_arg2))
        (m ((c : Thread nD τ).loc main_arg3)) (m ((c : Thread nD τ).loc main_arg4)) := by
  rw [show W2 m ρ c (Proc.devRef .tc main_v30) = (dat0 (V1 m ρ) c).arrAt 6 cfg0.N from W2_arr m ρ c 6, Regions.final0 (V1 m ρ) c]
  show Regions.layerOut (max · 0) (W1 m ρ c (Proc.devRef .tc main_v28)) (W1 m ρ c (Proc.devRef .tc main_v13)) (W1 m ρ c (Proc.devRef .tc main_v12))
    (W1 m ρ c (Proc.devRef .tc main_v14)) (W1 m ρ c (Proc.devRef .tc main_v15)) (W1 m ρ c (Proc.devRef .tc main_v29)) = _
  rw [first_sum, first_features, first_factor, first_wl, first_wr, first_bias]
  rfl

/-- The factor column is an input of the first region: the region leaves it as it found it. -/
theorem factor_kept (c : Dev nD) : W2 m ρ c (Proc.devRef .tc main_v12) = W1 m ρ c (Proc.devRef .tc main_v12) :=
  (W2_arr m ρ c 2).trans (((dat0 (V1 m ρ) c).arrAt_in 2 rfl _).trans (A_eq0 (V1 m ρ) c 2))

/-- After the last region the result buffer holds `result` of the arguments. -/
theorem result_eq (c : Dev nD) : (dat1 (V3 m ρ) c).arrAt 6 cfg1.N
    = result (m ((c : Thread nD τ).loc main_arg1)) (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [Regions.final1 (V3 m ρ) c]
  show Regions.layerOut (fun v => v) (W3 m ρ c (Proc.devRef .tc main_v41)) (W3 m ρ c (Proc.devRef .tc main_v30)) (W3 m ρ c (Proc.devRef .tc main_v12))
    (W3 m ρ c (Proc.devRef .tc main_v16)) (W3 m ρ c (Proc.devRef .tc main_v17)) (W3 m ρ c (Proc.devRef .tc main_v42)) = _
  rw [second_sum, second_features, second_factor, second_wl, second_wr, second_bias]
  rw [W2_of_ne m ρ c main_v1 (by decide), W2_of_ne m ρ c main_v3 (by decide), factor_kept,
    W2_of_ne m ρ c main_v16 (by decide), W2_of_ne m ρ c main_v17 (by decide), W2_of_ne m ρ c main_arg7 (by decide)]
  rw [hidden_eq, first_src, first_dst, first_factor, first_wl2, first_wr2, first_bias2]
  rfl

/-- Every weakly fair execution of the program terminates, nothing faulting, with the result buffer at `result`
    of the arguments and every argument as launched. -/
theorem value_run : θ_run defs (onTc (τ := τ) (main (F := Ideal))) ⟨m, fun _ => 0, ρ⟩ (fun r => ∀ c : Dev nD,
      r.2.mem ((c.tc : Thread nD τ).loc main_v43)
        = result (m ((c.tc : Thread nD τ).loc main_arg1)) (m ((c.tc : Thread nD τ).loc main_arg0)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (run m ρ)

end Cert.KernelIdeal.Out

end
-- ==== Proof.RefLayers.lean ====
/-
  The reference program's result as two applications of ONE layer function, and that layer read entry by entry.

  The reference takes the same two rows of the edge list, forms the same neighbour sums and in-degrees, and for
  each of its two layers divides the neighbour sums by the degree, multiplies by the first weight matrix, adds the
  bias and then the product of the features with the second weight matrix; between the layers it keeps the larger
  of each entry and zero.  Read at (i, j) a layer is

      Σ_k (A (i, k) / deg i) · Wl (k, j) + b j + Σ_k h (i, k) · Wr (k, j):

  the host's matrix product is the plain sum over the contracted coordinate, the degree is repeated along the
  row and the bias along the column.
-/
import proofs.«115030_j17738214933082_2_alg».proof.Proof.Gen.ReferenceIdeal.Run
import proofs.«115030_j17738214933082_2_alg».proof.Proof.Gen.ReferenceIdeal.Read
import proofs.«115030_j17738214933082_2_alg».proof.Proof.SageAlgebra
import Idealize.ShloMosaic.Lib.ValueIdx
import Idealize.ShloMosaic.Lib.Pipeline.Value
import Idealize.ShloMosaic.PureOps.Ideal.Laws

set_option maxRecDepth 16384

noncomputable section

namespace Cert.ReferenceIdeal.Layers

open Cert.ReferenceIdeal Cert.ReferenceIdeal.Gen Idealize.ShloMosaic Idealize.ShloMosaic.TcCoe Idealize.SL.Sem
open Idealize.ShloMosaic.ValueIdx

abbrev Edges := (⟨S2x1600000, .i32⟩ : BufTy).Contents (Elt Ideal)
abbrev EdgeRow := (⟨S1600000, .i32⟩ : BufTy).Contents (Elt Ideal)
abbrev Nodes := FVec Ideal S100000x128 .f32
abbrev Weights := FVec Ideal S128x128 .f32

/-- The edges' source nodes. -/
def srcRow (e : Edges) : EdgeRow :=
  shapeCast S1600000 (extractStridedSlice S1x1600000 ![0, 0] e slices_S2x1600000_S1x1600000_0_0) shapeCasts_S1x1600000_S1600000
/-- The edges' destination nodes. -/
def dstRow (e : Edges) : EdgeRow :=
  shapeCast S1600000 (extractStridedSlice S1x1600000 ![1, 0] e slices_S2x1600000_S1x1600000_1_0) shapeCasts_S1x1600000_S1600000

/-- The neighbour sum of the features `h` along the edges with sources `s` and destinations `d`. -/
def neighbourSum (s d : EdgeRow) (h : Nodes) : Nodes :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The larger of each node's in-degree and one. -/
def degree (d : EdgeRow) : FVec Ideal S100000 .f32 :=
  maximumf (F := Ideal) (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32))

/-- One layer over whole arrays, as the reference spells it. -/
def layer (A h : Nodes) (deg : FVec Ideal S100000 .f32) (wl wr : Weights)
    (b : FVec Ideal S128 .f32) : Nodes :=
  addf (F := Ideal) (addf (F := Ideal) (Host.dotGeneral (F := Ideal) dot_S100000x128_S128x128_S100000x128_1_0_0_1_n_n none
      (Host.divf (F := Ideal) A (broadcastInDim S100000x128 ![0, 1] bcast_S100000x1_S100000x128_0_1 (broadcastInDim S100000x1 ![0] bcast_S100000_S100000x1_0 deg))) wl)
      (broadcastInDim S100000x128 ![0, 1] bcast_S1x128_S100000x128_0_1 (broadcastInDim S1x128 ![1] bcast_S128_S1x128_1 b)))
    (Host.dotGeneral (F := Ideal) dot_S100000x128_S128x128_S100000x128_1_0_0_1_n_n none h wr)

/-- The larger of each entry and zero. -/
def positivePart (h : Nodes) : Nodes :=
  maximumf (F := Ideal) h (broadcastInDim S100000x128 ![] bcast_S_S100000x128 (constant (F := Ideal) S_ .f32 0x00000000#32))

/-- The features after the first layer. -/
def hidden (e : Edges) (x : Nodes) (wl wr : Weights) (b : FVec Ideal S128 .f32) : Nodes :=
  positivePart (layer (neighbourSum (srcRow e) (dstRow e) x) x (degree (dstRow e)) wl wr b)

/-- The reference's result is the second layer over the first layer's positive part. -/
theorem result_eq (m : (ℓ : Loc nD τ sig) → Buf (Elt Ideal) ℓ) (c : Dev nD) :
    Value.res_main_v54 m c
      = layer (neighbourSum (srcRow (m ((c.tc : Thread nD τ).loc main_arg1))) (dstRow (m ((c.tc : Thread nD τ).loc main_arg1)))
            (hidden (m ((c.tc : Thread nD τ).loc main_arg1)) (m ((c.tc : Thread nD τ).loc main_arg0)) (m ((c.tc : Thread nD τ).loc main_arg2))
              (m ((c.tc : Thread nD τ).loc main_arg3)) (m ((c.tc : Thread nD τ).loc main_arg4))))
          (hidden (m ((c.tc : Thread nD τ).loc main_arg1)) (m ((c.tc : Thread nD τ).loc main_arg0)) (m ((c.tc : Thread nD τ).loc main_arg2))
              (m ((c.tc : Thread nD τ).loc main_arg3)) (m ((c.tc : Thread nD τ).loc main_arg4)))
          (degree (dstRow (m ((c.tc : Thread nD τ).loc main_arg1))))
          (m ((c.tc : Thread nD τ).loc main_arg5)) (m ((c.tc : Thread nD τ).loc main_arg6)) (m ((c.tc : Thread nD τ).loc main_arg7)) := by
  unfold Value.res_main_v54 hidden positivePart layer neighbourSum degree srcRow dstRow
  rfl

/-! ## The layer at an entry -/

/-- Entry (i, j) of the host's 100000 × 128 by 128 × 128 product is Σ_k l (i, k) · r (k, j). -/
theorem product_apply (l : Nodes) (r : Weights) (i : Fin 100000) (j : Fin 128) :
    Host.dotGeneral (F := Ideal) dot_S100000x128_S128x128_S100000x128_1_0_0_1_n_n none l r (ix2 i j) = ∑ k : Fin 128, l (ix2 i k) * r (ix2 k j) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 i j) ((contrEquiv1 dot_S100000x128_S128x128_S100000x128_1_0_0_1_n_n 128 rfl rfl).symm k) = ix2 i k := funext fun a => Fin.ext (by
    match a with
    | ⟨0, _⟩ => exact Read.lhs_main_v23_0 _ _
    | ⟨1, _⟩ => exact (Read.lhs_main_v23_1 _ _).trans hk)
  have er : dot_S100000x128_S128x128_S100000x128_1_0_0_1_n_n.rhsIdx (ix2 i j) ((contrEquiv1 dot_S100000x128_S128x128_S100000x128_1_0_0_1_n_n 128 rfl rfl).symm k) = ix2 k j := funext fun a => Fin.ext (by
    match a with
    | ⟨0, _⟩ => exact (Read.rhs_main_v23_0 _ _).trans hk
    | ⟨1, _⟩ => exact Read.rhs_main_v23_1 _ _)
  rw [el, er]

/-- The degree repeated along each row reads, at (i, k), the degree of node `i`. -/
theorem degree_spread_apply (deg : FVec Ideal S100000 .f32) (i : Fin 100000) (k : Fin 128) :
    broadcastInDim S100000x128 ![0, 1] bcast_S100000x1_S100000x128_0_1 (broadcastInDim S100000x1 ![0] bcast_S100000_S100000x1_0 deg) (ix2 i k)
      = deg (ix1 i) := by
  rw [broadcastInDim_apply _ bcast_S100000x1_S100000x128_0_1 _ (ix2 i k) (ix2 i (0 : Fin 1)) (fun a => match a with
    | ⟨0, _⟩ => by show i.val = if (100000 : Nat) = 1 then 0 else i.val; rw [if_neg (by decide)]
    | ⟨1, _⟩ => by show 0 = if (1 : Nat) = 1 then 0 else k.val; rw [if_pos rfl])]
  exact broadcastInDim_apply _ bcast_S100000_S100000x1_0 deg (ix2 i (0 : Fin 1)) (ix1 i) (fun a => match a with
    | ⟨0, _⟩ => by show i.val = if (100000 : Nat) = 1 then 0 else i.val; rw [if_neg (by decide)])

/-- The bias repeated along each column reads, at (i, j), the bias of column `j`. -/
theorem bias_spread_apply (b : FVec Ideal S128 .f32) (i : Fin 100000) (j : Fin 128) :
    broadcastInDim S100000x128 ![0, 1] bcast_S1x128_S100000x128_0_1 (broadcastInDim S1x128 ![1] bcast_S128_S1x128_1 b) (ix2 i j)
      = b (ix1 j) := by
  rw [broadcastInDim_apply _ bcast_S1x128_S100000x128_0_1 _ (ix2 i j) (ix2 (0 : Fin 1) j) (fun a => match a with
    | ⟨0, _⟩ => by show 0 = if (1 : Nat) = 1 then 0 else i.val; rw [if_pos rfl]
    | ⟨1, _⟩ => by show j.val = if (128 : Nat) = 1 then 0 else j.val; rw [if_neg (by decide)])]
  exact broadcastInDim_apply _ bcast_S128_S1x128_1 b (ix2 (0 : Fin 1) j) (ix1 j) (fun a => match a with
    | ⟨0, _⟩ => by show j.val = if (128 : Nat) = 1 then 0 else j.val; rw [if_neg (by decide)])

/-- The layer at (i, j). -/
theorem layer_apply (A h : Nodes) (deg : FVec Ideal S100000 .f32) (wl wr : Weights)
    (b : FVec Ideal S128 .f32) (i : Fin 100000) (j : Fin 128) :
    layer A h deg wl wr b (ix2 i j)
      = Sage.refEntry (fun i k => A (ix2 i k)) (fun i k => h (ix2 i k)) (fun i => deg (ix1 i))
          (fun k j => wl (ix2 k j)) (fun k j => wr (ix2 k j)) (fun j => b (ix1 j)) i j := by
  unfold layer Sage.refEntry
  simp only [addf_apply]
  rw [product_apply, product_apply, bias_spread_apply]
  refine congrArg (· + b (ix1 j) + ∑ k : Fin 128, h (ix2 i k) * wr (ix2 k j)) ?_
  refine Finset.sum_congr rfl fun k _ => ?_
  show Ideal.div (A (ix2 i k)) (broadcastInDim S100000x128 ![0, 1] bcast_S100000x1_S100000x128_0_1 (broadcastInDim S100000x1 ![0] bcast_S100000_S100000x1_0 deg) (ix2 i k)) * wl (ix2 k j) = _
  rw [degree_spread_apply]

/-- The positive part at an index. -/
theorem positivePart_apply (h : Nodes) (i : S100000x128.Idx) : positivePart h i = max (h i) 0 := by
  unfold positivePart
  rw [maximumf_apply]
  exact congrArg (max (h i)) Ideal.ofBits_zero_f32

end Cert.ReferenceIdeal.Layers

end
-- ==== Proof.SharedHost.lean ====
/-
  The host functions the two programs share are the same functions: the two printed programs spell the edge
  rows, the gather at the sources, the sums at the destinations and the degree with the same operations, and a
  change of float format is the identity on the extended reals.
-/
import proofs.«115030_j17738214933082_2_alg».proof.Proof.KernelHost
import proofs.«115030_j17738214933082_2_alg».proof.Proof.RefLayers

set_option maxRecDepth 16384

noncomputable section

namespace Cert.Bridge

open Idealize.ShloMosaic

open Cert.ReferenceIdeal.Layers (Edges EdgeRow Nodes Weights)

/-- Widening a narrower float format is the identity. -/
theorem widen_eq {S : Shape} (v : FVec Ideal S .bf16) (h : FTy.bf16.bits < FTy.f32.bits) : extf (F := Ideal) .f32 v h = v := rfl
/-- Narrowing to it is the identity. -/
theorem narrow_eq {S : Shape} (x : FVec Ideal S .f32) : Cert.KernelIdeal.Stretch.narrow x = x := rfl

theorem rowSums_eq : Cert.KernelIdeal.scatter_S100000x128_S1600000x1_S1600000x128_1_0_0_1 = Cert.ReferenceIdeal.scatter_S100000x128_S1600000x1_S1600000x128_1_0_0_1 := rfl
theorem counts_eq : Cert.KernelIdeal.scatter_S100000_S1600000x1_S1600000_n_0_0_1 = Cert.ReferenceIdeal.scatter_S100000_S1600000x1_S1600000_n_0_0_1 := rfl
theorem rows_eq : Cert.KernelIdeal.gather_S100000x128_S1600000x1_S1600000x128_1_0_n_n_0_1_1128 = Cert.ReferenceIdeal.gather_S100000x128_S1600000x1_S1600000x128_1_0_n_n_0_1_1128 := rfl

theorem src_eq (e : Edges) : Cert.KernelIdeal.Stretch.srcRow e = Cert.ReferenceIdeal.Layers.srcRow e := by
  unfold Cert.KernelIdeal.Stretch.srcRow Cert.ReferenceIdeal.Layers.srcRow
  rfl
theorem dst_eq (e : Edges) : Cert.KernelIdeal.Stretch.dstRow e = Cert.ReferenceIdeal.Layers.dstRow e := by
  unfold Cert.KernelIdeal.Stretch.dstRow Cert.ReferenceIdeal.Layers.dstRow
  rfl

theorem degree_eq (d : EdgeRow) : Cert.KernelIdeal.Stretch.degree d = Cert.ReferenceIdeal.Layers.degree d := by
  unfold Cert.KernelIdeal.Stretch.degree Cert.ReferenceIdeal.Layers.degree
  rw [counts_eq]

/-- The neighbour sum taken through the narrower format is the neighbour sum. -/
theorem neighbourSum_eq (s d : EdgeRow) (h : Nodes) :
    Cert.KernelIdeal.Stretch.neighbourSum s d h = Cert.ReferenceIdeal.Layers.neighbourSum s d h := by
  unfold Cert.KernelIdeal.Stretch.neighbourSum Cert.ReferenceIdeal.Layers.neighbourSum
  rw [widen_eq, rowSums_eq, rows_eq]

end Cert.Bridge

end
-- ==== Proof.Bridge.lean ====
/-
  The two programs compute one function.

  Both take the same rows of the edge list, so the same neighbour sums and the same degrees; a change of float
  format is the identity on the extended reals.  The kernel's layer scales each neighbour sum by one over the
  degree and adds the bias last, the reference's divides by the degree and adds the bias in the middle: the
  degree is the larger of a count and one, so it is never zero, and the two layers agree entry by entry.  The
  first layer's positive part feeds the second in both programs.
-/
import proofs.«115030_j17738214933082_2_alg».proof.Proof.KernelValue
import proofs.«115030_j17738214933082_2_alg».proof.Proof.RefLayers
import proofs.«115030_j17738214933082_2_alg».proof.Proof.SharedHost
import proofs.«115030_j17738214933082_2_alg».proof.Proof.LibReadAt
import Idealize.ShloMosaic.Lib.IdealHost
import Idealize.ShloMosaic.Lib.ValueLayout

set_option maxRecDepth 16384

noncomputable section

namespace Cert.Bridge

open Idealize.ShloMosaic Idealize.ShloMosaic.ValueIdx

open Cert.ReferenceIdeal.Layers (Edges EdgeRow Nodes Weights)

/-- The degree is never zero: it is at least one. -/
theorem degree_ne_zero (d : EdgeRow) (i : Fin 100000) : Cert.ReferenceIdeal.Layers.degree d (ix1 i) ≠ 0 := by
  unfold Cert.ReferenceIdeal.Layers.degree
  rw [maximumf_apply]
  show max _ (Ideal.ofBits .f32 0x3F800000#32) ≠ 0
  rw [Ideal.ofBits_one_f32]
  exact Cert.Sage.max_one_ne_zero _

/-- The host's quotient of two arrays at an index is the quotient of their entries. -/
theorem quotient_apply {S : Shape} (a b : FVec Ideal S .f32) (j : S.Idx) : Host.divf (F := Ideal) a b j = Ideal.div (a j) (b j) := rfl

/-- An array filled with one constant reads that constant everywhere. -/
theorem splat_apply {S : Shape} (bits : BitVec 32) (h : (⟨0, ![]⟩ : Shape).BroadcastsInDim S (![] : Fin 0 → Fin S.rank)) (j : S.Idx) :
    broadcastInDim S ![] h (constant (F := Ideal) ⟨0, ![]⟩ .f32 bits) j = Ideal.ofBits .f32 bits := rfl

/-- The factor column at node `i` is one over the node's degree. -/
theorem factor_apply (d : EdgeRow) (i : Fin 100000) :
    Cert.KernelIdeal.Stretch.factor d (ix2 i (0 : Fin 1)) = Ideal.div 1 (Cert.ReferenceIdeal.Layers.degree d (ix1 i)) := by
  unfold Cert.KernelIdeal.Stretch.factor
  rw [Cert.LibReadAt.shapeCast_a_a1_apply, quotient_apply, splat_apply, Ideal.ofBits_one_f32, degree_eq]

/-! ## One layer -/

/-- The kernel's layer over whole arrays is the reference's, entry by entry. -/
theorem layer_eq (post : EReal → EReal) (A X : Nodes) (d : EdgeRow) (wl wr : Weights) (b : FVec Ideal ⟨1, ![128]⟩ .f32)
    (hb : (⟨1, ![128]⟩ : Shape).ShapeCasts ⟨2, ![1, 128]⟩) :
    Cert.KernelIdeal.Regions.layerOut post A X (Cert.KernelIdeal.Stretch.factor d)
        (Cert.KernelIdeal.Stretch.narrow wl) (Cert.KernelIdeal.Stretch.narrow wr) (shapeCast ⟨2, ![1, 128]⟩ b hb)
      = fun i => post (Cert.ReferenceIdeal.Layers.layer A X (Cert.ReferenceIdeal.Layers.degree d) wl wr b i) := by
  funext i
  obtain ⟨p, q, rfl⟩ : ∃ (p : Fin 100000) (q : Fin 128), i = ix2 p q := ⟨i 0, i 1, eq_ix2 i⟩
  show post (Cert.Sage.scaledEntry (fun p k => A (ix2 p k)) (fun p k => X (ix2 p k))
      (fun p => Cert.KernelIdeal.Stretch.factor d (ix2 p (0 : Fin 1)))
      (fun k j => wl (ix2 k j)) (fun k j => wr (ix2 k j)) (fun j => shapeCast ⟨2, ![1, 128]⟩ b hb (ix2 (0 : Fin 1) j)) p q) = _
  rw [Cert.ReferenceIdeal.Layers.layer_apply]
  refine congrArg post ?_
  have hf : (fun p : Fin 100000 => Cert.KernelIdeal.Stretch.factor d (ix2 p (0 : Fin 1)))
      = fun i => Ideal.div 1 (Cert.ReferenceIdeal.Layers.degree d (ix1 i)) := funext fun p => factor_apply d p
  have hbias : (fun j : Fin 128 => shapeCast ⟨2, ![1, 128]⟩ b hb (ix2 (0 : Fin 1) j)) = fun j => b (ix1 j) :=
    funext fun j => shapeCast_a_1a_apply b hb 0 j
  rw [hf, hbias]
  exact Cert.Sage.scaledEntry_eq_refEntry _ _ _ (degree_ne_zero d) _ _ _ p q

/-! ## The two layers -/

/-- The first region's output is the reference's features after its first layer. -/
theorem hidden_eq (e : Edges) (x : Nodes) (wl wr : Weights) (b : FVec Ideal ⟨1, ![128]⟩ .f32) :
    Cert.KernelIdeal.Out.hidden e x wl wr b = Cert.ReferenceIdeal.Layers.hidden e x wl wr b := by
  unfold Cert.KernelIdeal.Out.hidden Cert.ReferenceIdeal.Layers.hidden
  rw [narrow_eq x, layer_eq, src_eq, dst_eq, neighbourSum_eq]
  funext i
  rw [Cert.ReferenceIdeal.Layers.positivePart_apply]

/-- The kernel program's result is the reference's second layer over those features. -/
theorem result_eq (e : Edges) (x : Nodes) (wl wr : Weights) (b : FVec Ideal ⟨1, ![128]⟩ .f32) (wl2 wr2 : Weights) (b2 : FVec Ideal ⟨1, ![128]⟩ .f32) :
    Cert.KernelIdeal.Out.result e x wl wr b wl2 wr2 b2
      = Cert.ReferenceIdeal.Layers.layer
          (Cert.ReferenceIdeal.Layers.neighbourSum (Cert.ReferenceIdeal.Layers.srcRow e) (Cert.ReferenceIdeal.Layers.dstRow e)
            (Cert.ReferenceIdeal.Layers.hidden e x wl wr b))
          (Cert.ReferenceIdeal.Layers.hidden e x wl wr b) (Cert.ReferenceIdeal.Layers.degree (Cert.ReferenceIdeal.Layers.dstRow e)) wl2 wr2 b2 := by
  unfold Cert.KernelIdeal.Out.result
  rw [hidden_eq, layer_eq, src_eq, dst_eq]
  funext i
  rw [neighbourSum_eq]

end Cert.Bridge

end
-- ==== Proof.lean ====
/-
  Two layers of mean-aggregation graph convolution over 100000 nodes and 1600000 edges: a program that runs each
  layer's dense part as a pipelined kernel over blocks of 5000 nodes, against the plain array program.

  Every claim is about what the two idealized programs compute on the extended reals.  Each layer sums the
  neighbours' features along the edges, normalises by the in-degree (at least one), and adds the two matrix
  products and the bias; the first layer keeps the positive part.  The kernel program multiplies by the reciprocal of
  the degree, computed once, where the reference divides by the degree: equal because the degree is never zero.
  It adds the bias after the second product where the reference adds it before: equal because addition of
  extended reals is commutative and associative.  It narrows features and weights to a shorter float format, which is
  the identity here.  Nothing in the argument needs the inputs finite.

  The frames of the two kernel programs are the generated ones; the reference's frame is its run with the result
  dropped; the idealization rewrote nothing.
-/
import proofs.«115030_j17738214933082_2_alg».proof.Defs
import proofs.«115030_j17738214933082_2_alg».proof.Proof.Gen.Kernel
import proofs.«115030_j17738214933082_2_alg».proof.Proof.Gen.Kernel.Frame
import proofs.«115030_j17738214933082_2_alg».proof.Proof.Gen.KernelIdeal
import proofs.«115030_j17738214933082_2_alg».proof.Proof.Gen.KernelIdeal.Frame
import proofs.«115030_j17738214933082_2_alg».proof.Proof.Gen.ReferenceIdeal
import proofs.«115030_j17738214933082_2_alg».proof.Proof.Gen.Pre_finite_inputs
import proofs.«115030_j17738214933082_2_alg».proof.Proof.Gen.ReferenceIdeal.Run
import proofs.«115030_j17738214933082_2_alg».proof.Proof.Gen.ReferenceIdeal.Read
import proofs.«115030_j17738214933082_2_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the second layer over the first layer's positive part, of arguments that agree. -/
theorem algebraic : Cert.algebraic_KernelIdeal_ReferenceIdeal := by
  intro m ρ m' ρ' _ hagree
  refine ⟨_, Cert.KernelIdeal.Out.value_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Layers.result_eq, (hagree c).1, (hagree c).2.1, (hagree c).2.2.1, (hagree c).2.2.2.1, (hagree c).2.2.2.2.1,
    (hagree c).2.2.2.2.2.1, (hagree c).2.2.2.2.2.2.1, (hagree c).2.2.2.2.2.2.2]
  exact (Cert.Bridge.result_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
